-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S4096x1024 : Shape := ⟨2, ![4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8x2048x1024 .f32) (main_arg1 : FVec F S4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8x2048x1024 : Shape := ⟨3, ![8, 2048, 1024]⟩
abbrev S4096x1024 : Shape := ⟨2, ![4096, 1024]⟩
abbrev S1024x4096 : Shape := ⟨2, ![1024, 4096]⟩
abbrev S8x2048x4096 : Shape := ⟨3, ![8, 2048, 4096]⟩
abbrev S1x256x1024 : Shape := ⟨3, ![1, 256, 1024]⟩
abbrev S1x256x4096 : Shape := ⟨3, ![1, 256, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S4096x1024, .bf16⟩
  | .hbm, ⟨3, _⟩ => ⟨S1024x4096, .bf16⟩
  | .hbm, ⟨4, _⟩ => ⟨S8x2048x1024, .f32⟩
  | .hbm, ⟨5, _⟩ => ⟨S8x2048x4096, .f32⟩
  | .local _ .vmem, ⟨0, _⟩ => ⟨S1x256x1024, .f32⟩
  | .local _ .vmem, ⟨1, _⟩ => ⟨S1x256x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x4096, .f32⟩
  | .local _ .vmem, ⟨7, _⟩ => ⟨S1x256x4096, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  transposes_S4096x1024_S1024x4096_1_0 : S4096x1024.Transposes [1, 0] S1024x4096
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x1024_S1x256x1024 : S256x1024.ShapeCasts S1x256x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2048x1024.size a
  hwx0_3 : ∀ i : grid0.Coords, EltTy.bits .f32 = 32 ∨ (Rect.block (s := S8x2048x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S8x2048x4096.size a
  hwx0_4 : ∀ i : grid0.Coords, EltTy.bits .f32 = 32 ∨ (Rect.block (s := S8x2048x4096) S1x256x4096.size (cc0_transform_4 i) (hinb0_4 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S4096x1024 : Shape := ⟨2, ![4096, 1024]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S8x2048x4096, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x4096, .f32⟩
  | .hbm, ⟨16, _⟩ => ⟨S8x2048x4096, .f32⟩
  | .hbm, ⟨17, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x4096_S8x2048_d2 : S8x2048x4096.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  dot_S8x2048x1024_S4096x1024_S8x2048x4096_2_1_01_0_n_n_wf : DotDims.WF S8x2048x1024 S4096x1024 S8x2048x4096 [2] [1] [0, 1] [0] [] []
  dot_S8x2048x4096_S4096x1024_S8x2048x1024_2_0_01_1_n_n_wf : DotDims.WF S8x2048x4096 S4096x1024 S8x2048x1024 [2] [0] [0, 1] [1] [] []

variable [Facts₀]

def dot_S8x2048x1024_S4096x1024_S8x2048x4096_2_1_01_0_n_n : DotDims S8x2048x1024 S4096x1024 S8x2048x4096 where
  lhsContracting := [2]
  rhsContracting := [1]
  lhsNonContracting := [0, 1]
  rhsNonContracting := [0]
  lhsBatch := []
  rhsBatch := []
  wf := dot_S8x2048x1024_S4096x1024_S8x2048x4096_2_1_01_0_n_n_wf
def dot_S8x2048x4096_S4096x1024_S8x2048x1024_2_0_01_1_n_n : DotDims S8x2048x4096 S4096x1024 S8x2048x1024 where
  lhsContracting := [2]
  rhsContracting := [0]
  lhsNonContracting := [0, 1]
  rhsNonContracting := [1]
  lhsBatch := []
  rhsBatch := []
  wf := dot_S8x2048x4096_S4096x1024_S8x2048x1024_2_0_01_1_n_n_wf

class Facts : Prop extends Facts₀ where

variable [Facts]
-- ==== Proof.Softmax.lean ====
/-
  Softmax attention of one query row over a codebook, on the extended reals: the function both programs compute.

  For a query row `x` (1024 entries) and a codebook `c` (4096 codes of 1024 entries each):
  the logit of code `k` is the inner product `∑ d, x d * c k d`; the row maximum is the `max` of the 4096 logits, folded
  from the word both programs start it from (the f32 pattern of −∞, never evaluated here: it is the same word on both
  sides); the weight of code `k` is `exp (logit k − row maximum)`; the score is the weight over the sum of the 4096
  weights; and the mixed code at coordinate `d` is `∑ k, score k * v k d` for a table of values `v` (the codebook again).
  Nothing here needs an entry to be finite: both programs apply these very operations, so the two sides meet as
  functions on all of the extended reals, and the only law used besides reading both sides at an index is that a fold
  of `max` from `a` is already at least `a`.
-/
import Idealize.ShloMosaic.PureOps.Ideal
import Idealize.ShloMosaic.PureOps.Ideal.Laws
import Idealize.ShloMosaic.Lib.ValueIdx

noncomputable section

namespace Cert.Softmax

open Idealize.ShloMosaic Idealize.ShloMosaic.ValueIdx

/-- The value a row maximum is folded from: the f32 word of −∞, kept as a word. -/
abbrev floor : EReal := Ideal.ofBits .f32 0xFF800000#32

/-- The logit of code `k` for the query row `x`: their inner product. -/
def logit (x : Fin 1024 → EReal) (c : Fin 4096 → Fin 1024 → EReal) (k : Fin 4096) : EReal :=
  ∑ d : Fin 1024, x d * c k d

/-- The largest of the row's 4096 logits (and of `floor`). -/
def rowMax (x : Fin 1024 → EReal) (c : Fin 4096 → Fin 1024 → EReal) : EReal :=
  (Finset.univ : Finset (Fin 4096)).fold max floor (logit x c)

/-- The unnormalised weight of code `k`. -/
def weight (x : Fin 1024 → EReal) (c : Fin 4096 → Fin 1024 → EReal) (k : Fin 4096) : EReal :=
  Ideal.exp (logit x c k - rowMax x c)

/-- The sum of the row's weights. -/
def total (x : Fin 1024 → EReal) (c : Fin 4096 → Fin 1024 → EReal) : EReal :=
  ∑ k : Fin 4096, weight x c k

/-- The attention score of code `k`. -/
def score (x : Fin 1024 → EReal) (c : Fin 4096 → Fin 1024 → EReal) (k : Fin 4096) : EReal :=
  Ideal.div (weight x c k) (total x c)

/-- Coordinate `d` of the score-weighted sum of the value rows `v`. -/
def mix (x : Fin 1024 → EReal) (c v : Fin 4096 → Fin 1024 → EReal) (d : Fin 1024) : EReal :=
  ∑ k : Fin 4096, score x c k * v k d

/-- A fold of `max` from `a` is at least `a`, so taking the maximum with `a` once more changes nothing. -/
theorem max_fold_self {ι : Type*} (s : Finset ι) (a : EReal) (f : ι → EReal) :
    max a (s.fold max a f) = s.fold max a f :=
  max_eq_right ((Finset.le_fold_max a).mpr (Or.inl le_rfl))

/-! ## The whole arrays -/

/-- Query row `(b, s)` of the activations. -/
def rowOf (z : (⟨3, ![8, 2048, 1024]⟩ : Shape).Idx → EReal) (b : Fin 8) (s : Fin 2048) : Fin 1024 → EReal :=
  fun d => z (ix3 b s d)

/-- The codebook by code and coordinate. -/
def codes (cb : (⟨2, ![4096, 1024]⟩ : Shape).Idx → EReal) : Fin 4096 → Fin 1024 → EReal :=
  fun k d => cb (ix2 k d)

/-- The attention scores, one row of 4096 per query row. -/
def scores (z : (⟨3, ![8, 2048, 1024]⟩ : Shape).Idx → EReal) (cb : (⟨2, ![4096, 1024]⟩ : Shape).Idx → EReal) :
    (⟨3, ![8, 2048, 4096]⟩ : Shape).Idx → EReal :=
  fun i => score (rowOf z (i 0) (i 1)) (codes cb) (i 2)

/-- The quantised activations: each query row's score-weighted sum of the codes. -/
def mixed (z : (⟨3, ![8, 2048, 1024]⟩ : Shape).Idx → EReal) (cb : (⟨2, ![4096, 1024]⟩ : Shape).Idx → EReal) :
    (⟨3, ![8, 2048, 1024]⟩ : Shape).Idx → EReal :=
  fun i => mix (rowOf z (i 0) (i 1)) (codes cb) (codes cb) (i 2)

end Cert.Softmax

end
-- ==== Proof.RefSoftmax.lean ====
/-
  The reference computes the softmax attention of `Softmax.lean`: its scores array is `Softmax.scores` and its result
  array `Softmax.mixed` of the two argument arrays, index by index, on all of the extended reals.

  The reference's stages, read at an index one operation at a time: the first contraction at `(b, s, k)` is the logit
  of code `k` for query row `(b, s)`; its maximum over `k`, folded from the −∞ word, is that row's maximum; the host
  then takes the maximum with the −∞ word once more, which changes nothing (`Softmax.max_fold_self`); the exponential
  of the difference is the weight; the sum over `k` starts from the zero word, which is the real 0; the quotient is the
  score; and the second contraction at `(b, s, d)` sums the scores against column `d` of the codebook.
-/
import proofs.«101577_j30013231465037_2_alg».proof.Proof.Gen.ReferenceIdeal.Read
import proofs.«101577_j30013231465037_2_alg».proof.Proof.Softmax

noncomputable section

namespace Cert.RefSoftmax

open Cert.ReferenceIdeal Cert.ReferenceIdeal.Gen Cert.ReferenceIdeal.Read
open Idealize.ShloMosaic Idealize.ShloMosaic.ValueIdx Cert.Softmax

variable (z : (⟨S8x2048x1024, .f32⟩ : BufTy).Contents (Elt Ideal)) (cb : (⟨S4096x1024, .f32⟩ : BufTy).Contents (Elt Ideal))

/-! ## The logits -/

/-- The first contraction reads the activations at `(b, s, d)` … -/
theorem lidx0_eq (i : S8x2048x4096.Idx) (k : Fin 1024) : lidx_main_v0 i k = ix3 (i 0) (i 1) k :=
  funext fun a => Fin.ext (by match a with | ⟨0, _⟩ => rfl | ⟨1, _⟩ => rfl | ⟨2, _⟩ => rfl)

/-- … and the codebook at `(k, d)`. -/
theorem ridx0_eq (i : S8x2048x4096.Idx) (k : Fin 1024) : ridx_main_v0 i k = ix2 (i 2) k :=
  funext fun a => Fin.ext (by match a with | ⟨0, _⟩ => rfl | ⟨1, _⟩ => rfl)

/-- Entry `(b, s, k)` of the first contraction is the logit of code `k` for query row `(b, s)`. -/
theorem logit_apply (i : S8x2048x4096.Idx) :
    val_main_v0 (F := Ideal) z cb i = logit (rowOf z (i 0) (i 1)) (codes cb) (i 2) := by
  rw [val_main_v0_apply]
  simp only [lidx0_eq, ridx0_eq]
  rfl

/-! ## The row maximum -/

/-- The reduction over the last axis, as the fact that names the inserted coordinate. -/
theorem dropsLast : S8x2048x4096.Reduces [2] S8x2048 := by decide

/-- A row index with the code's coordinate inserted last. -/
theorem lift_eq (j : S8x2048.Idx) (k : Fin 4096) : dropsLast.lift j k = ix3 (j 0) (j 1) k :=
  funext fun a => Fin.ext (by match a with | ⟨0, _⟩ => rfl | ⟨1, _⟩ => rfl | ⟨2, _⟩ => rfl)

/-- The host's maximum over the codes, at `(b, s)`, is the row maximum. -/
theorem rowMax_apply (j : S8x2048.Idx) :
    val_main_v1 (F := Ideal) z cb j = rowMax (rowOf z (j 0) (j 1)) (codes cb) := by
  unfold val_main_v1
  refine (Host.reduce_eq_fold_single (α := Ideal .f32) (s := S8x2048x4096) (t := S8x2048) (a := 2) (u := S_)
    (FloatOps.maximumf (F := Ideal) (φ := .f32)) (val_main_v0 (F := Ideal) z cb) (val_main_cst (F := Ideal))
    reducesTo_S8x2048x4096_S8x2048_d2 dropsLast h_S_ j).trans ?_
  show (Finset.univ : Finset (Fin 4096)).fold max floor (fun k => val_main_v0 (F := Ideal) z cb (dropsLast.lift j k)) = _
  unfold rowMax
  refine congrArg (fun f => (Finset.univ : Finset (Fin 4096)).fold max floor f) (funext fun k => ?_)
  exact (congrArg (val_main_v0 (F := Ideal) z cb) (lift_eq j k)).trans (logit_apply z cb _)

/-- What the host subtracts at `(b, s, k)`: the row maximum (the second maximum with the −∞ word is absorbed). -/
theorem shift_apply (i : S8x2048x4096.Idx) :
    val_main_v5 (F := Ideal) z cb i = rowMax (rowOf z (i 0) (i 1)) (codes cb) := by
  rw [val_main_v5_apply, val_main_v4_apply, val_main_v3_apply, val_main_v2_apply, val_main_cst_0_apply, rowMax_apply]
  unfold rowMax
  exact max_fold_self _ _ _

/-! ## Weights, their sum, scores -/

theorem weight_apply (i : S8x2048x4096.Idx) :
    val_main_v7 (F := Ideal) z cb i = weight (rowOf z (i 0) (i 1)) (codes cb) (i 2) := by
  rw [val_main_v7_apply, val_main_v6_apply, logit_apply, shift_apply]
  rfl

theorem total_apply (j : S8x2048.Idx) :
    val_main_v8 (F := Ideal) z cb j = total (rowOf z (j 0) (j 1)) (codes cb) := by
  rw [val_main_v8_apply, val_main_cst_1_apply]
  show Ideal.ofBits .f32 0x00000000#32 + _ = _
  rw [Ideal.ofBits_zero_f32, zero_add]
  unfold total
  refine Finset.sum_congr rfl fun k _ => ?_
  rw [weight_apply]
  rfl

/-- The reference's scores array is the specification's. -/
theorem scores_eq : val_main_v11 (F := Ideal) z cb = scores z cb := by
  funext i
  rw [val_main_v11_apply, weight_apply, val_main_v10_apply, val_main_v9_apply, total_apply]
  rfl

/-! ## The mixed codes -/

/-- The second contraction reads the codebook at `(k, d)`. -/
theorem ridx12_eq (i : S8x2048x1024.Idx) (k : Fin 4096) : ridx_main_v12 i k = ix2 k (i 2) :=
  funext fun a => Fin.ext (by match a with | ⟨0, _⟩ => rfl | ⟨1, _⟩ => rfl)

/-- The reference's result array is the specification's. -/
theorem mixed_eq : val_main_v12 (F := Ideal) z cb = mixed z cb := by
  funext i
  rw [val_main_v12_apply, scores_eq]
  unfold mixed mix
  refine Finset.sum_congr rfl fun k _ => ?_
  rw [ridx12_eq]
  rfl

end Cert.RefSoftmax

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.Tile.lean ====
/-
  One tile of the kernel's work, read at an index.

  At a grid point the body holds a block of 256 query rows (shape [1, 256, 1024]), the whole transposed codebook
  ([1024, 4096]: coordinate `d` of code `k` at `(d, k)`) and the whole codebook ([4096, 1024]). It forms the 256 × 4096
  tile of logits by one matrix product into zeros, takes each row's maximum and spreads it along the row, exponentiates
  the differences, sums each row and spreads the sum, divides, and multiplies the resulting scores into the codebook.
  Read at an index, entry `(r, k)` of the score tile is `Softmax.score` of query row `r` against the codes as the
  transposed copy holds them, and entry `(r, d)` of the product is `Softmax.mix` of the same with the values taken
  from the untransposed copy. Changes of float format are the identity on the extended reals and casts that only add
  or drop a unit axis move nothing, so the proof is the reading of each operation at an index; no entry is assumed
  finite.
-/
import proofs.«101577_j30013231465037_2_alg».proof.Proof.Gen.KernelIdeal.Skeleton
import proofs.«101577_j30013231465037_2_alg».proof.Proof.Softmax
import proofs.«101577_j30013231465037_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.Tile

open Cert.KernelIdeal Cert.KernelIdeal.Gen Idealize.ShloMosaic Idealize.ShloMosaic.ValueIdx Cert.Softmax

/-! ## The two matrix products -/

/-- The dimension record of the logits product, [256, 1024] × [1024, 4096]. -/
abbrev dLogits : DotDims S256x1024 S1024x4096 S256x4096 := dot_S256x1024_S1024x4096_S256x4096_1_0_0_1_n_n
/-- The dimension record of the mixing product, [256, 4096] × [4096, 1024]. -/
abbrev dMix : DotDims S256x4096 S4096x1024 S256x1024 := dot_S256x4096_S4096x1024_S256x1024_1_0_0_1_n_n

theorem dLogits_l0 (i : S256x4096.Idx) (q : dLogits.contr.Idx) : (dLogits.lhsIdx i q 0).val = (i 0).val := by
  unfold DotDims.lhsIdx
  rw [dif_neg (show ¬(0 : Fin S256x1024.rank) ∈ dLogits.lhsBatch by decide),
    dif_pos (show (0 : Fin S256x1024.rank) ∈ dLogits.lhsNonContracting by decide)]
  rfl
theorem dLogits_l1 (i : S256x4096.Idx) (q : dLogits.contr.Idx) :
    (dLogits.lhsIdx i q 1).val = (q ⟨0, by decide⟩).val := dLogits.lhsIdx_val_of_single rfl i q
theorem dLogits_r0 (i : S256x4096.Idx) (q : dLogits.contr.Idx) :
    (dLogits.rhsIdx i q 0).val = (q ⟨0, by decide⟩).val := dLogits.rhsIdx_val_of_single rfl i q
theorem dLogits_r1 (i : S256x4096.Idx) (q : dLogits.contr.Idx) : (dLogits.rhsIdx i q 1).val = (i 1).val := by
  unfold DotDims.rhsIdx
  rw [dif_neg (show ¬(1 : Fin S1024x4096.rank) ∈ dLogits.rhsBatch by decide),
    dif_pos (show (1 : Fin S1024x4096.rank) ∈ dLogits.rhsNonContracting by decide)]
  rfl

theorem dMix_l0 (i : S256x1024.Idx) (q : dMix.contr.Idx) : (dMix.lhsIdx i q 0).val = (i 0).val := by
  unfold DotDims.lhsIdx
  rw [dif_neg (show ¬(0 : Fin S256x4096.rank) ∈ dMix.lhsBatch by decide),
    dif_pos (show (0 : Fin S256x4096.rank) ∈ dMix.lhsNonContracting by decide)]
  rfl
theorem dMix_l1 (i : S256x1024.Idx) (q : dMix.contr.Idx) :
    (dMix.lhsIdx i q 1).val = (q ⟨0, by decide⟩).val := dMix.lhsIdx_val_of_single rfl i q
theorem dMix_r0 (i : S256x1024.Idx) (q : dMix.contr.Idx) :
    (dMix.rhsIdx i q 0).val = (q ⟨0, by decide⟩).val := dMix.rhsIdx_val_of_single rfl i q
theorem dMix_r1 (i : S256x1024.Idx) (q : dMix.contr.Idx) : (dMix.rhsIdx i q 1).val = (i 1).val := by
  unfold DotDims.rhsIdx
  rw [dif_neg (show ¬(1 : Fin S4096x1024.rank) ∈ dMix.rhsBatch by decide),
    dif_pos (show (1 : Fin S4096x1024.rank) ∈ dMix.rhsNonContracting by decide)]
  rfl

/-- Entry `(r, k)` of the logits product into zeros: the sum over the 1024 coordinates. -/
theorem logits_product (Q : FVec Ideal S256x1024 .bf16) (C : FVec Ideal S1024x4096 .bf16) (r : Fin 256) (k : Fin 4096) :
    matmul dLogits none Q C (constant (F := Ideal) S256x4096 .f32 0x00000000#32) (ix2 r k)
      = ∑ d : Fin 1024, Q (ix2 r d) * C (ix2 d k) :=
  (Ideal.matmul_constant_zero_apply dLogits none Q C (ix2 r k)).trans
    (Cert.Sage.LibDot.sum_plain dLogits rfl rfl dLogits_l0 dLogits_l1 dLogits_r0 dLogits_r1 Q C r k)

/-- Entry `(r, d)` of the mixing product into zeros: the sum over the 4096 codes. -/
theorem mix_product (A : FVec Ideal S256x4096 .bf16) (C : FVec Ideal S4096x1024 .bf16) (r : Fin 256) (d : Fin 1024) :
    matmul dMix none A C (constant (F := Ideal) S256x1024 .f32 0x00000000#32) (ix2 r d)
      = ∑ k : Fin 4096, A (ix2 r k) * C (ix2 k d) :=
  (Ideal.matmul_constant_zero_apply dMix none A C (ix2 r d)).trans
    (Cert.Sage.LibDot.sum_plain dMix rfl rfl dMix_l0 dMix_l1 dMix_r0 dMix_r1 A C r d)

/-! ## Row reductions and the spreading of a per-row value -/

/-- Each row's maximum, folded from the −∞ word. -/
def tileMax (M : FVec Ideal S256x4096 .f32) : FVec Ideal S256 .f32 :=
  multiReduction .maximumf [1] S256 M 0xFF800000#32 reduces_S256x4096_S256 (.inl rfl) rfl

/-- Each row's sum. -/
def tileSum (M : FVec Ideal S256x4096 .f32) : FVec Ideal S256 .f32 :=
  multiReduction .add [1] S256 M 0x00000000#32 reduces_S256x4096_S256 (.inl rfl) rfl

/-- A value per row laid along that row's 4096 columns: cast to a column of height 256, then repeated. -/
def spread (v : FVec Ideal S256 .f32) : FVec Ideal S256x4096 .f32 :=
  broadcastTo S256x4096 (shapeCast S256x1 v shapeCasts_S256_S256x1) broadcasts_S256x1_S256x4096

/-- Row `r` with the column's coordinate inserted is `(r, k)`. -/
theorem lift_row (r : Fin 256) (k : Fin 4096) : reduces_S256x4096_S256.lift (ix1 r) k = ix2 r k :=
  funext fun a => Fin.ext (by match a with | ⟨0, _⟩ => rfl | ⟨1, _⟩ => rfl)

theorem tileMax_apply (M : FVec Ideal S256x4096 .f32) (r : Fin 256) :
    tileMax M (ix1 r) = (Finset.univ : Finset (Fin 4096)).fold max floor (fun k => M (ix2 r k)) := by
  unfold tileMax
  refine (Ideal.multiReduction_maximumf_single M _ reduces_S256x4096_S256 (.inl rfl) rfl (ix1 r)).trans ?_
  exact congrArg (fun f => (Finset.univ : Finset (Fin 4096)).fold max floor f)
    (funext fun k => congrArg M (lift_row r k))

theorem tileSum_apply (M : FVec Ideal S256x4096 .f32) (r : Fin 256) :
    tileSum M (ix1 r) = ∑ k : Fin 4096, M (ix2 r k) := by
  unfold tileSum
  refine (Ideal.multiReduction_add_single M _ reduces_S256x4096_S256 (.inl rfl) rfl (ix1 r)).trans ?_
  exact Finset.sum_congr rfl fun k _ => congrArg M (lift_row r k)

theorem spread_apply (v : FVec Ideal S256 .f32) (r : Fin 256) (k : Fin 4096) : spread v (ix2 r k) = v (ix1 r) := by
  unfold spread
  refine (broadcastTo_apply _ broadcasts_S256x1_S256x4096 (ix2 r k) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else k.val; rw [if_pos rfl]
  · exact shapeCast_apply v shapeCasts_S256_S256x1 (ix2 r (0 : Fin 1)) (ix1 r) (by
      rw [Shape.rowMajor_val_one, Shape.rowMajor_val_two]; show r.val = r.val * 1 + 0; omega)

/-! ## The normalisation of a tile of logits -/

/-- The unnormalised weights of a tile of logits. -/
def weights (L : FVec Ideal S256x4096 .f32) : FVec Ideal S256x4096 .f32 := exp (subf L (spread (tileMax L)))

/-- The scores of a tile of logits. -/
def normalise (L : FVec Ideal S256x4096 .f32) : FVec Ideal S256x4096 .f32 :=
  divf (weights L) (spread (tileSum (weights L)))

/-- If the tile's entry `(r, k)` is the logit of code `k` for the row `x r`, its normalisation's entry is that row's score. -/
theorem normalise_apply (L : FVec Ideal S256x4096 .f32) (x : Fin 256 → Fin 1024 → EReal) (c : Fin 4096 → Fin 1024 → EReal)
    (hL : ∀ (r : Fin 256) (k : Fin 4096), L (ix2 r k) = logit (x r) c k) (r : Fin 256) (k : Fin 4096) :
    normalise L (ix2 r k) = score (x r) c k := by
  have hmax : ∀ r : Fin 256, tileMax L (ix1 r) = rowMax (x r) c := fun r =>
    (tileMax_apply L r).trans
      (congrArg (fun f => (Finset.univ : Finset (Fin 4096)).fold max floor f) (funext fun k => hL r k))
  have hW : ∀ (r : Fin 256) (k : Fin 4096), weights L (ix2 r k) = weight (x r) c k := by
    intro r k
    show Ideal.exp (L (ix2 r k) - spread (tileMax L) (ix2 r k)) = _
    rw [spread_apply, hmax, hL]
    rfl
  have hT : ∀ r : Fin 256, tileSum (weights L) (ix1 r) = total (x r) c := fun r =>
    (tileSum_apply (weights L) r).trans (Finset.sum_congr rfl fun k _ => hW r k)
  show Ideal.div (weights L (ix2 r k)) (spread (tileSum (weights L)) (ix2 r k)) = _
  rw [spread_apply, hT, hW]
  rfl

/-! ## The body's stored values -/

/-- Query row `r` of the block of 256 rows. -/
def tileRow (P0 : Vec Ideal S1x256x1024 .f32) (r : Fin 256) : Fin 1024 → EReal := fun d => P0 (ix3 (0 : Fin 1) r d)

/-- The codes as the transposed copy holds them. -/
def codesT (P1 : Vec Ideal S1024x4096 .bf16) : Fin 4096 → Fin 1024 → EReal := fun k d => P1 (ix2 d k)

/-- The codes as the untransposed copy holds them. -/
def codesOf (P2 : Vec Ideal S4096x1024 .bf16) : Fin 4096 → Fin 1024 → EReal := fun k d => P2 (ix2 k d)

/-- The tile of logits the body forms. -/
def tileLogits (P0 : Vec Ideal S1x256x1024 .f32) (P1 : Vec Ideal S1024x4096 .bf16) : FVec Ideal S256x4096 .f32 :=
  matmul dLogits none
    (truncf .bf16 (shapeCast S256x1024 P0 shapeCasts_S1x256x1024_S256x1024 : FVec Ideal S256x1024 .f32) bitsLt_bf16_f32)
    (shapeCast S1024x4096 P1 shapeCasts_S1024x4096_S1024x4096 : FVec Ideal S1024x4096 .bf16)
    (constant S256x4096 .f32 0x00000000#32)

theorem tileLogits_apply (P0 : Vec Ideal S1x256x1024 .f32) (P1 : Vec Ideal S1024x4096 .bf16) (r : Fin 256) (k : Fin 4096) :
    tileLogits P0 P1 (ix2 r k) = logit (tileRow P0 r) (codesT P1) k := by
  unfold tileLogits
  refine (logits_product _ _ r k).trans ?_
  unfold logit tileRow codesT
  refine Finset.sum_congr rfl fun d _ => ?_
  show shapeCast S256x1024 P0 shapeCasts_S1x256x1024_S256x1024 (ix2 r d)
      * shapeCast S1024x4096 P1 shapeCasts_S1024x4096_S1024x4096 (ix2 d k) = P0 (ix3 (0 : Fin 1) r d) * P1 (ix2 d k)
  rw [shapeCast_1ab_ab_apply, shapeCast_self]

/-- The score tile the body computes is the normalisation of its tile of logits. -/
theorem scoreTile_eq (P0 : Vec Ideal S1x256x1024 .f32) (P1 : Vec Ideal S1024x4096 .bf16) :
    k0_pay1 (F := Ideal) P0 P1 = normalise (tileLogits P0 P1) := rfl

/-- Entry `(r, k)` of the score tile. -/
theorem scoreTile_apply (P0 : Vec Ideal S1x256x1024 .f32) (P1 : Vec Ideal S1024x4096 .bf16) (r : Fin 256) (k : Fin 4096) :
    k0_pay1 (F := Ideal) P0 P1 (ix2 r k) = score (tileRow P0 r) (codesT P1) k := by
  rw [scoreTile_eq]
  exact normalise_apply _ (tileRow P0) (codesT P1) (tileLogits_apply P0 P1) r k

/-- Entry `(u, r, k)` of the block of scores the body stores. -/
theorem scoreBlock_apply (P0 : Vec Ideal S1x256x1024 .f32) (P1 : Vec Ideal S1024x4096 .bf16)
    (u : Fin 1) (r : Fin 256) (k : Fin 4096) :
    k0_pay2 (F := Ideal) P0 P1 (ix3 u r k) = score (tileRow P0 r) (codesT P1) k :=
  (shapeCast_ab_1ab_apply (k0_pay1 (F := Ideal) P0 P1) shapeCasts_S256x4096_S1x256x4096 u r k).trans
    (scoreTile_apply P0 P1 r k)

/-- Entry `(u, r, d)` of the block of mixed codes the body stores. -/
theorem mixBlock_apply (P0 : Vec Ideal S1x256x1024 .f32) (P1 : Vec Ideal S1024x4096 .bf16) (P2 : Vec Ideal S4096x1024 .bf16)
    (u : Fin 1) (r : Fin 256) (d : Fin 1024) :
    k0_pay3 (F := Ideal) P0 P1 P2 (ix3 u r d) = mix (tileRow P0 r) (codesT P1) (codesOf P2) d := by
  refine (shapeCast_ab_1ab_apply
    (matmul dMix none (truncf .bf16 (k0_pay1 (F := Ideal) P0 P1) bitsLt_bf16_f32)
      (shapeCast S4096x1024 P2 shapeCasts_S4096x1024_S4096x1024 : FVec Ideal S4096x1024 .bf16)
      (constant S256x1024 .f32 0x00000000#32))
    shapeCasts_S256x1024_S1x256x1024 u r d).trans ?_
  refine (mix_product _ _ r d).trans ?_
  unfold mix codesOf
  refine Finset.sum_congr rfl fun k _ => ?_
  show k0_pay1 (F := Ideal) P0 P1 (ix2 r k) * shapeCast S4096x1024 P2 shapeCasts_S4096x1024_S4096x1024 (ix2 k d)
      = score (tileRow P0 r) (codesT P1) k * P2 (ix2 k d)
  rw [scoreTile_apply, shapeCast_self]

end Cert.Tile

end
-- ==== Proof.Arrays.lean ====
/-
  From tiles to the two result arrays.

  The grid has 64 points, one per block of 256 consecutive query rows of one batch entry: point `t` reads rows
  `[256·q, 256·q + 256)` of batch entry `p` of the activations, and the whole of the two codebook copies, and writes
  back the same rows of the two results. The codebook copies are what the host operations before the region left:
  the codebook with its float format changed (the identity on the extended reals) and that array transposed, so the
  transposed copy holds coordinate `d` of code `k` at `(d, k)`. Hence what point `t` writes back is block `t` of
  `Softmax.mixed`, respectively `Softmax.scores`, of the two argument arrays; every index of either result lies in
  the block of the point `(i 0, i 1 / 256)`; so after the run each result array is that function whole.
-/
import proofs.«101577_j30013231465037_2_alg».proof.Proof.Gen.KernelIdeal.Value
import proofs.«101577_j30013231465037_2_alg».proof.Proof.Tile
import Idealize.ShloMosaic.Lib.Pipeline.Value
import Idealize.ShloMosaic.Lib.StableHlo.Run
import Idealize.ShloMosaic.Lib.ValueLayout

noncomputable section

namespace Cert.Arrays

open Cert.KernelIdeal Cert.KernelIdeal.Gen Idealize.ShloMosaic Idealize.ShloMosaic.TcCoe Idealize.SL.Sem
open Idealize.ShloMosaic.ValueIdx Idealize.ShloMosaic.StableHlo Cert.Softmax Cert.Tile
open Idealize.ShloMosaic.Pipeline (Dat)

variable (m : (ℓ : Loc nD τ sig) → Buf (Elt Ideal) ℓ) (ρ : Dev nD → PrngReg)

/-! ## One point: a stored block's entry is the specification's, once the loaded blocks are the arrays' rows -/

/-- Entry `y` of the block of scores, when row `y 1` of the activation block is row `(i 0, i 1)` of the activations
    `Z`, the transposed copy holds the codebook `CB`, and `y`, `i` name the same code. -/
theorem score_point (P0 : Vec Ideal S1x256x1024 .f32) (P1 : Vec Ideal S1024x4096 .bf16)
    (Z : S8x2048x1024.Idx → EReal) (CB : S4096x1024.Idx → EReal) (y : S1x256x4096.Idx) (i : S8x2048x4096.Idx)
    (h0 : ∀ d : Fin 1024, P0 (ix3 (0 : Fin 1) (y 1) d) = Z (ix3 (i 0) (i 1) d))
    (h1 : ∀ (k : Fin 4096) (d : Fin 1024), P1 (ix2 d k) = CB (ix2 k d)) (hi2 : (i 2).val = (y 2).val) :
    k0_pay2 (F := Ideal) P0 P1 y = scores Z CB i := by
  refine (congrArg (k0_pay2 (F := Ideal) P0 P1) (eq_ix3 y)).trans ?_
  refine (scoreBlock_apply P0 P1 (y 0) (y 1) (y 2)).trans ?_
  show score (tileRow P0 (y 1)) (codesT P1) (y 2) = score (rowOf Z (i 0) (i 1)) (codes CB) (i 2)
  have e0 : tileRow P0 (y 1) = rowOf Z (i 0) (i 1) := funext h0
  have e1 : codesT P1 = codes CB := funext fun k => funext fun d => h1 k d
  have e2 : y 2 = i 2 := Fin.ext hi2.symm
  rw [e0, e1, e2]

/-- Entry `y` of the block of mixed codes, likewise, the untransposed copy holding the codebook too. -/
theorem mix_point (P0 : Vec Ideal S1x256x1024 .f32) (P1 : Vec Ideal S1024x4096 .bf16) (P2 : Vec Ideal S4096x1024 .bf16)
    (Z : S8x2048x1024.Idx → EReal) (CB : S4096x1024.Idx → EReal) (y : S1x256x1024.Idx) (i : S8x2048x1024.Idx)
    (h0 : ∀ d : Fin 1024, P0 (ix3 (0 : Fin 1) (y 1) d) = Z (ix3 (i 0) (i 1) d))
    (h1 : ∀ (k : Fin 4096) (d : Fin 1024), P1 (ix2 d k) = CB (ix2 k d))
    (h2 : ∀ (k : Fin 4096) (d : Fin 1024), P2 (ix2 k d) = CB (ix2 k d)) (hi2 : (i 2).val = (y 2).val) :
    k0_pay3 (F := Ideal) P0 P1 P2 y = mixed Z CB i := by
  refine (congrArg (k0_pay3 (F := Ideal) P0 P1 P2) (eq_ix3 y)).trans ?_
  refine (mixBlock_apply P0 P1 P2 (y 0) (y 1) (y 2)).trans ?_
  show mix (tileRow P0 (y 1)) (codesT P1) (codesOf P2) (y 2) = mix (rowOf Z (i 0) (i 1)) (codes CB) (codes CB) (i 2)
  have e0 : tileRow P0 (y 1) = rowOf Z (i 0) (i 1) := funext h0
  have e1 : codesT P1 = codes CB := funext fun k => funext fun d => h1 k d
  have e2 : codesOf P2 = codes CB := funext fun k => funext fun d => h2 k d
  have e3 : y 2 = i 2 := Fin.ext hi2.symm
  rw [e0, e1, e2, e3]

/-! ## What the region finds in the two codebook copies -/

/-- The untransposed copy: the codebook, its float format changed. -/
theorem V_copy (c : Dev nD) : V m c main_v0
    = (truncf .bf16 (m ((c : Thread nD τ).loc main_arg1) : FVec Ideal S4096x1024 .f32) bitsLt_bf16_f32
        : FVec Ideal S4096x1024 .bf16) := by
  dsimp only [Gen.V, Gen.hostOps0]; after_results <;> rfl

/-- The transposed copy: that array transposed. -/
theorem V_copyT (c : Dev nD) : V m c main_v1
    = (transpose S1024x4096 [1, 0]
        (truncf .bf16 (m ((c : Thread nD τ).loc main_arg1) : FVec Ideal S4096x1024 .f32) bitsLt_bf16_f32 : FVec Ideal S4096x1024 .bf16)
        transposes_S4096x1024_S1024x4096_1_0 : FVec Ideal S1024x4096 .bf16) := by
  dsimp only [Gen.V, Gen.hostOps0]; after_results <;> rfl

theorem V_copy_apply (c : Dev nD) (k : Fin 4096) (d : Fin 1024) :
    (V m c main_v0 : S4096x1024.Idx → EReal) (ix2 k d) = m ((c : Thread nD τ).loc main_arg1) (ix2 k d) :=
  congrFun (V_copy m c) (ix2 k d)

theorem V_copyT_apply (c : Dev nD) (k : Fin 4096) (d : Fin 1024) :
    (V m c main_v1 : S1024x4096.Idx → EReal) (ix2 d k) = m ((c : Thread nD τ).loc main_arg1) (ix2 k d) :=
  (congrFun (V_copyT m c) (ix2 d k)).trans (transpose_ix2_apply _ transposes_S4096x1024_S1024x4096_1_0 d k)

/-! ## The index maps, decided over the 64 points -/

theorem hz3 : (![0, 0, 0] : Fin 3 → Nat) = fun _ => 0 := funext fun a => by fin_cases a <;> rfl
theorem hz2 : (![0, 0] : Fin 2 → Nat) = fun _ => 0 := funext fun a => by fin_cases a <;> rfl

/-- The activations' window moves with the two results' windows along the batch and row-block axes and stays at
    block 0 of the last axis; the codebook copies' windows stay at block `(0, 0)`. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (batch entry, row block) is some point's. -/
theorem idx_onto : ∀ (p : Fin 8) (q : Fin 8), ∃ t : Fin cfg0.N, win0_3.index t = ![p.val, q.val, 0] :=
  (by decide +kernel : ∀ (p : Fin 8) (q : Fin 8), ∃ t : Fin grid0.N, win0_3.index t = ![p.val, q.val, 0])

/-! ## The loaded blocks are the arrays' rows -/

/-- Row `r` of the activation block at point `t` is row `(index 0, 256 · index 1 + r)` of the activations. -/
theorem rows_at (c : Dev nD) (t : Fin cfg0.N) (u : Fin 1) (r : Fin 256) (d : Fin 1024) (p : Fin 8) (s : Fin 2048)
    (h0 : p.val = win0_3.index t (0 : Fin 3) * 1 + 1 * u.val)
    (h1 : s.val = win0_3.index t (1 : Fin 3) * 256 + 1 * r.val) :
    iblk m c 0 t (ix3 (0 : Fin 1) r d) = m ((c : Thread nD τ).loc main_arg0) (ix3 p s d) := by
  obtain ⟨e0, e1, e2, -⟩ := idx_facts t
  show V m c main_arg0 (((cfg0.win 0).blk t).view.emb (ix3 (0 : Fin 1) r d)) = _
  rw [V_main_arg0]
  refine congrArg (m ((c : Thread nD τ).loc main_arg0)) (funext fun a => Fin.ext ?_)
  have hu : u.val = 0 := by omega
  match a with
  | ⟨0, _⟩ => show win0_0.index t (0 : Fin 3) * 1 + 1 * 0 = p.val; omega
  | ⟨1, _⟩ => show win0_0.index t (1 : Fin 3) * 256 + 1 * r.val = s.val; omega
  | ⟨2, _⟩ => show win0_0.index t (2 : Fin 3) * 1024 + 1 * d.val = d.val; omega

/-- The transposed copy's block at any point is the whole transposed codebook. -/
theorem codesT_at (c : Dev nD) (t : Fin cfg0.N) (k : Fin 4096) (d : Fin 1024) :
    iblk m c 1 t (ix2 d k) = m ((c : Thread nD τ).loc main_arg1) (ix2 k d) := by
  obtain ⟨-, -, -, -, -, -, -, e0, e1, -⟩ := idx_facts t
  show (V m c main_v1 : S1024x4096.Idx → EReal) (((cfg0.win 1).blk t).view.emb (ix2 d k)) = _
  refine (congrArg (V m c main_v1 : S1024x4096.Idx → EReal) (funext fun a => Fin.ext ?_)).trans (V_copyT_apply m c k d)
  match a with
  | ⟨0, _⟩ => show win0_1.index t (0 : Fin 2) * 1024 + 1 * d.val = d.val; omega
  | ⟨1, _⟩ => show win0_1.index t (1 : Fin 2) * 4096 + 1 * k.val = k.val; omega

/-- The untransposed copy's block at any point is the whole codebook. -/
theorem codes_at (c : Dev nD) (t : Fin cfg0.N) (k : Fin 4096) (d : Fin 1024) :
    iblk m c 2 t (ix2 k d) = m ((c : Thread nD τ).loc main_arg1) (ix2 k d) := by
  obtain ⟨-, -, -, -, -, -, -, -, -, e0, e1⟩ := idx_facts t
  show (V m c main_v0 : S4096x1024.Idx → EReal) (((cfg0.win 2).blk t).view.emb (ix2 k d)) = _
  refine (congrArg (V m c main_v0 : S4096x1024.Idx → EReal) (funext fun a => Fin.ext ?_)).trans (V_copy_apply m c k d)
  match a with
  | ⟨0, _⟩ => show win0_2.index t (0 : Fin 2) * 4096 + 1 * k.val = k.val; omega
  | ⟨1, _⟩ => show win0_2.index t (1 : Fin 2) * 1024 + 1 * d.val = d.val; omega

/-! ## What each point writes back -/

/-- Point `t` writes back block `t` of the mixed codes of the two argument arrays. -/
theorem flushed_mixed (c : Dev nD) (t : Fin cfg0.N) :
    (dats m 0 c).flushed 3 t = ((cfg0.win 3).blk t).view.read (Elt Ideal)
      (mixed (m ((c : Thread nD τ).loc main_arg0)) (m ((c : Thread nD τ).loc main_arg1))) := by
  rw [Cert.KernelIdeal.Value.flushed3]
  unfold out0_3
  rw [View.canon_unit_zero hz3]
  simp only [View.ld_unit_zero (S := S1x256x1024) hz3, View.ld_unit_zero (S := S1024x4096) hz2,
    View.ld_unit_zero (S := S4096x1024) hz2]
  funext y
  show k0_pay3 (F := Ideal) (iblk m c 0 t) (iblk m c 1 t) (iblk m c 2 t) y
    = mixed (m ((c : Thread nD τ).loc main_arg0)) (m ((c : Thread nD τ).loc main_arg1)) (((cfg0.win 3).blk t).view.emb y)
  refine mix_point (iblk m c 0 t) (iblk m c 1 t) (iblk m c 2 t) _ _ y (((cfg0.win 3).blk t).view.emb y) ?_ ?_ ?_ ?_
  · exact fun d => rows_at m c t (y 0) (y 1) d ((((cfg0.win 3).blk t).view.emb y) 0) ((((cfg0.win 3).blk t).view.emb y) 1) rfl rfl
  · exact fun k d => codesT_at m c t k d
  · exact fun k d => codes_at m c t k d
  · obtain ⟨-, -, -, e3, -⟩ := idx_facts t
    show win0_3.index t (2 : Fin 3) * 1024 + 1 * (y 2).val = (y 2).val
    omega

/-- Point `t` writes back block `t` of the scores of the two argument arrays. -/
theorem flushed_scores (c : Dev nD) (t : Fin cfg0.N) :
    (dats m 0 c).flushed 4 t = ((cfg0.win 4).blk t).view.read (Elt Ideal)
      (scores (m ((c : Thread nD τ).loc main_arg0)) (m ((c : Thread nD τ).loc main_arg1))) := by
  rw [Cert.KernelIdeal.Value.flushed4]
  unfold out0_4
  rw [View.canon_unit_zero hz3]
  simp only [View.ld_unit_zero (S := S1x256x1024) hz3, View.ld_unit_zero (S := S1024x4096) hz2]
  funext y
  show k0_pay2 (F := Ideal) (iblk m c 0 t) (iblk m c 1 t) y
    = scores (m ((c : Thread nD τ).loc main_arg0)) (m ((c : Thread nD τ).loc main_arg1)) (((cfg0.win 4).blk t).view.emb y)
  obtain ⟨-, -, -, -, e4, e5, e6, -⟩ := idx_facts t
  refine score_point (iblk m c 0 t) (iblk m c 1 t) _ _ y (((cfg0.win 4).blk t).view.emb y) ?_ ?_ ?_
  · refine fun d => rows_at m c t (y 0) (y 1) d ((((cfg0.win 4).blk t).view.emb y) 0) ((((cfg0.win 4).blk t).view.emb y) 1) ?_ ?_
    · show win0_4.index t (0 : Fin 3) * 1 + 1 * (y 0).val = win0_3.index t (0 : Fin 3) * 1 + 1 * (y 0).val; omega
    · show win0_4.index t (1 : Fin 3) * 256 + 1 * (y 1).val = win0_3.index t (1 : Fin 3) * 256 + 1 * (y 1).val; omega
  · exact fun k d => codesT_at m c t k d
  · show win0_4.index t (2 : Fin 3) * 4096 + 1 * (y 2).val = (y 2).val
    omega

/-! ## The blocks cover the arrays -/

theorem mem_blk_mixed (t : Fin cfg0.N) (i : S8x2048x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v2_0).slice (win0_3.rect t)).set ↔ _
  rw [View.set_slice_whole, Rect.mem_set_unit]
  exact Iff.rfl

theorem mem_blk_scores (t : Fin cfg0.N) (i : S8x2048x4096.Idx) :
    i ∈ ((cfg0.win 4).blk t).view.set ↔ ∀ a : Fin 3, win0_4.index t a * S1x256x4096.size a ≤ (i a).val
      ∧ (i a).val < win0_4.index t a * S1x256x4096.size a + S1x256x4096.size a := by
  show i ∈ ((View.whole main_v2_1).slice (win0_4.rect t)).set ↔ _
  rw [View.set_slice_whole, Rect.mem_set_unit]
  exact Iff.rfl

/-- Index `i` of the mixed codes is in the block of the point `(i 0, i 1 / 256)`. -/
theorem cover_mixed (i : S8x2048x1024.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk_mixed]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- Index `i` of the scores is in the block of the point `(i 0, i 1 / 256)`. -/
theorem cover_scores (i : S8x2048x4096.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 4096 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  obtain ⟨-, -, -, -, e4, e5, e6, -⟩ := idx_facts t
  refine ⟨t, flush0_4 t, ?_⟩
  rw [mem_blk_scores]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 4096 ≤ (i 2).val ∧ (i 2).val < win0_4.index t (2 : Fin 3) * 4096 + 4096; omega

/-! ## The arrays after the run -/

theorem final_mixed (c : Dev nD) : (dats m 0 c).arrAt 3 cfg0.N
    = mixed (m ((c : Thread nD τ).loc main_arg0)) (m ((c : Thread nD τ).loc main_arg1)) :=
  (dats m 0 c).arrAt_eq_of_cover 3 _ (fun t _ => flushed_mixed m c t) cover_mixed

theorem final_scores (c : Dev nD) : (dats m 0 c).arrAt 4 cfg0.N
    = scores (m ((c : Thread nD τ).loc main_arg0)) (m ((c : Thread nD τ).loc main_arg1)) :=
  (dats m 0 c).arrAt_eq_of_cover 4 _ (fun t _ => flushed_scores m c t) cover_scores

/-- The kernel's run: both results at the specification of the argument arrays, the arguments unchanged. -/
theorem run : θ_run defs (onTc (τ := τ) (main (F := Ideal))) ⟨m, fun _ => 0, ρ⟩ fun r => ∀ c : Dev nD,
      r.2.mem ((c : Thread nD τ).loc main_v2_0)
        = mixed (m ((c : Thread nD τ).loc main_arg0)) (m ((c : Thread nD τ).loc main_arg1))
      ∧ r.2.mem ((c : Thread nD τ).loc main_v2_1)
        = scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_mixed m c), (h c).2.1.trans (final_scores m c),
      (h c).2.2.1, (h c).2.2.2⟩)
    (Cert.KernelIdeal.Value.run_blocks m ρ)

end Cert.Arrays

end
-- ==== Proof.lean ====
/-
  Softmax attention over a codebook: the tiled kernel and the plain reference compute the same two arrays.

  Both programs take activations `z` (8 × 2048 query rows of 1024 coordinates) and a codebook `cb` (4096 codes of
  1024 coordinates). For each query row the logit of code `k` is the inner product of the row with the code; the scores
  are the softmax of the row's 4096 logits (exponentials of the logits less the row maximum, over their sum); the second
  result is the score-weighted sum of the codes. The kernel does this 256 rows at a time, against a copy of the codebook
  and a transposed copy that the host prepares, with the matrix products taken in a narrower float format; the reference
  does it for all rows at once. On the extended reals a change of float format is the identity and a sum does not
  depend on how it is grouped, so both are the functions `Softmax.scores` and `Softmax.mixed` of `Proof/Softmax.lean`:
  `Proof/RefSoftmax.lean` reads the reference's operations at an index, `Proof/Tile.lean` the kernel body's,
  `Proof/Arrays.lean` carries the tiles to the whole arrays. The one place the two spellings differ is that the
  reference takes the maximum with −∞ once more after folding the row maximum from −∞, which changes nothing. No entry
  is assumed finite anywhere: the equality holds on all of the extended reals, and the precondition is not used.
  The idealized kernel is the printed kernel's own text read on the extended reals (no rewrite was applied), so that
  conjunct is trivial; the three runs' termination and unchanged arguments are the generated frames.
-/
import proofs.«101577_j30013231465037_2_alg».proof.Defs
import proofs.«101577_j30013231465037_2_alg».proof.Proof.Gen.Kernel
import proofs.«101577_j30013231465037_2_alg».proof.Proof.Gen.Kernel.Skeleton
import proofs.«101577_j30013231465037_2_alg».proof.Proof.Gen.Kernel.Launch
import proofs.«101577_j30013231465037_2_alg».proof.Proof.Gen.Kernel.Points
import proofs.«101577_j30013231465037_2_alg».proof.Proof.Gen.Kernel.Frame
import proofs.«101577_j30013231465037_2_alg».proof.Proof.Gen.KernelIdeal
import proofs.«101577_j30013231465037_2_alg».proof.Proof.Gen.KernelIdeal.Skeleton
import proofs.«101577_j30013231465037_2_alg».proof.Proof.Gen.KernelIdeal.Launch
import proofs.«101577_j30013231465037_2_alg».proof.Proof.Gen.KernelIdeal.Points
import proofs.«101577_j30013231465037_2_alg».proof.Proof.Gen.KernelIdeal.Frame
import proofs.«101577_j30013231465037_2_alg».proof.Proof.Gen.ReferenceIdeal
import proofs.«101577_j30013231465037_2_alg».proof.Proof.Gen.Pre_finite_inputs
import proofs.«101577_j30013231465037_2_alg».proof.Proof.Gen.KernelIdeal.Value
import proofs.«101577_j30013231465037_2_alg».proof.Proof.Gen.ReferenceIdeal.Run
import proofs.«101577_j30013231465037_2_alg».proof.Proof.Gen.ReferenceIdeal.Read
import proofs.«101577_j30013231465037_2_alg».proof.Proof.Softmax
import proofs.«101577_j30013231465037_2_alg».proof.Proof.RefSoftmax
import proofs.«101577_j30013231465037_2_alg».proof.Proof.Tile
import proofs.«101577_j30013231465037_2_alg».proof.Proof.Arrays
import Idealize.ShloMosaic.Adequacy
import Idealize.ShloMosaic.Init

noncomputable section

namespace Cert.Proof

open Idealize.ShloMosaic Idealize.ShloMosaic.TcCoe Idealize.SL.Sem

/-- The printed kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the activations and the codebook, the kernel's run ends with its two results at
    `Softmax.mixed` and `Softmax.scores` of them (`Arrays.run`), and the reference's run with its two results at the
    operations' composed term, which is the same pair of functions (`RefSoftmax.mixed_eq`, `RefSoftmax.scores_eq`). -/
theorem algebraic : Cert.algebraic_KernelIdeal_ReferenceIdeal := by
  intro m ρ m' ρ' _ hagree
  refine ⟨_, _, Cert.Arrays.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v12_eq, Cert.RefSoftmax.mixed_eq, (hagree c).1, (hagree c).2]
  · rw [(h c).2.1, Cert.ReferenceIdeal.Read.val_main_v11_eq, Cert.RefSoftmax.scores_eq, (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
